-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S3072x1 .f32 .bf16
  ∧ IdealRules.truncf_extf.Statement Cert.KernelIdeal.S1024x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S18432x64 : Shape := ⟨2, ![18432, 64]⟩
abbrev S1024x64 : Shape := ⟨2, ![1024, 64]⟩
abbrev S_ : Shape := ⟨0, ![]⟩

class Facts : Prop where
  bcast_S_S18432x64 : S_.BroadcastsInDim S18432x64 (![] : Fin 0 → Fin S18432x64.rank)
  reducesTo_S18432x64_S_d0_1 : S18432x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S18432x64 .f32) (main_arg1 : FVec F S1024x64 .f32) : IVec S_ 1 :=
  let main_v0 : FVec F S18432x64 .f32 := Host.absf main_arg0
  let main_cst : FVec F S_ .f32 := constant S_ .f32 0x7F800000#32
  let main_v1 : FVec F S18432x64 .f32 := broadcastInDim S18432x64 ![] bcast_S_S18432x64 main_cst
  let main_v2 : IVec S18432x64 1 := cmpf .olt main_v0 main_v1
  let main_c : IVec S_ 1 := constantI S_ 1 1#1
  let main_v3 : IVec S_ 1 := (fun x v => Host.reduce IntOp.andi x v reducesTo_S18432x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S18432x64 : Shape := ⟨2, ![18432, 64]⟩
abbrev S1024x64 : Shape := ⟨2, ![1024, 64]⟩
abbrev S18432x1024 : Shape := ⟨2, ![18432, 1024]⟩
abbrev S3072x64 : Shape := ⟨2, ![3072, 64]⟩
abbrev S3072x1024 : Shape := ⟨2, ![3072, 1024]⟩
abbrev S3072 : Shape := ⟨1, ![3072]⟩
abbrev S3072x1 : Shape := ⟨2, ![3072, 1]⟩
abbrev S3072x68 : Shape := ⟨2, ![3072, 68]⟩
abbrev S1024 : Shape := ⟨1, ![1024]⟩
abbrev S1024x1 : Shape := ⟨2, ![1024, 1]⟩
abbrev S1024x68 : Shape := ⟨2, ![1024, 68]⟩

abbrev nBuf : Space → Nat
  | .hbm => 3
  | .vmem => 5
  | .smem => 0
  | _ => 0

abbrev bufTy : (tb : Table) → Fin (tcTables nBuf tb) → BufTy
  | .hbm, ⟨0, _⟩ => ⟨S18432x64, .f32⟩
  | .hbm, ⟨1, _⟩ => ⟨S1024x64, .f32⟩
  | .hbm, ⟨2, _⟩ => ⟨S18432x1024, .f32⟩
  | .local _ .vmem, ⟨0, _⟩ => ⟨S3072x64, .f32⟩
  | .local _ .vmem, ⟨1, _⟩ => ⟨S3072x64, .f32⟩
  | .local _ .vmem, ⟨2, _⟩ => ⟨S1024x64, .f32⟩
  | .local _ .vmem, ⟨3, _⟩ => ⟨S3072x1024, .f32⟩
  | .local _ .vmem, ⟨4, _⟩ => ⟨S3072x1024, .f32⟩
  | _, _ => ⟨S18432x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S3072x64_S3072x64_0_0 : ∀ a, (![0, 0] : Fin 2 → Nat) a + S3072x64.size a ≤ S3072x64.size a
  h_S3072x64 : 0 < S3072x64.numel
  inb_S1024x64_S1024x64_0_0 : ∀ a, (![0, 0] : Fin 2 → Nat) a + S1024x64.size a ≤ S1024x64.size a
  h_S1024x64 : 0 < S1024x64.numel
  reduces_S3072x64_S3072 : S3072x64.Reduces [1] S3072
  shapeCasts_S3072_S3072x1 : S3072.ShapeCasts S3072x1
  bitsLt_bf16_f32 : FTy.bits .bf16 < FTy.bits .f32
  concatenates_S3072x64_S3072x1_S3072x1_S3072x1_S3072x1_S3072x68_d1 : Shape.Concatenates [S3072x64, S3072x1, S3072x1, S3072x1, S3072x1] S3072x68 1
  reduces_S1024x64_S1024 : S1024x64.Reduces [1] S1024
  shapeCasts_S1024_S1024x1 : S1024.ShapeCasts S1024x1
  concatenates_S1024x64_S1024x1_S1024x1_S1024x1_S1024x1_S1024x68_d1 : Shape.Concatenates [S1024x64, S1024x1, S1024x1, S1024x1, S1024x1] S1024x68 1
  inb_S3072x1024_S3072x1024_0_0 : ∀ a, (![0, 0] : Fin 2 → Nat) a + S3072x1024.size a ≤ S3072x1024.size a
  h_S3072x1024 : 0 < S3072x1024.numel
  dot_S3072x68_S1024x68_S3072x1024_1_1_0_0_n_n_wf : DotDims.WF S3072x68 S1024x68 S3072x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x64.size a ≤ S18432x64.size a
  hwx0_0 : ∀ i : grid0.Coords, EltTy.bits .f32 = 32 ∨ (Rect.block (s := S18432x64) S3072x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x1024.size a ≤ S18432x1024.size a
  hwx0_2 : ∀ i : grid0.Coords, EltTy.bits .f32 = 32 ∨ (Rect.block (s := S18432x1024) S3072x1024.size (cc0_transform_2 i) (hinb0_2 i)).WholeWords (EltTy.packing .f32)

variable [Facts₀]

def dot_S3072x68_S1024x68_S3072x1024_1_1_0_0_n_n : DotDims S3072x68 S1024x68 S3072x1024 where
  lhsContracting := [1]
  rhsContracting := [1]
  lhsNonContracting := [0]
  rhsNonContracting := [0]
  lhsBatch := []
  rhsBatch := []
  wf := dot_S3072x68_S1024x68_S3072x1024_1_1_0_0_n_n_wf

abbrev win0_0 : Pipeline.Window sig grid0 :=
  Pipeline.Window.ofSpec (Memref.whole main_arg0) S3072x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3072x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S18432x64 : Shape := ⟨2, ![18432, 64]⟩
abbrev S1024x64 : Shape := ⟨2, ![1024, 64]⟩
abbrev S_ : Shape := ⟨0, ![]⟩
abbrev S18432 : Shape := ⟨1, ![18432]⟩
abbrev S18432x1 : Shape := ⟨2, ![18432, 1]⟩
abbrev S1024 : Shape := ⟨1, ![1024]⟩
abbrev S1x1024 : Shape := ⟨2, ![1, 1024]⟩
abbrev S64x1024 : Shape := ⟨2, ![64, 1024]⟩
abbrev S18432x1024 : Shape := ⟨2, ![18432, 1024]⟩

abbrev nBuf : Space → Nat
  | .hbm => 20
  | .vmem => 0
  | .smem => 0
  | _ => 0

abbrev bufTy : (tb : Table) → Fin (tcTables nBuf tb) → BufTy
  | .hbm, ⟨0, _⟩ => ⟨S18432x64, .f32⟩
  | .hbm, ⟨1, _⟩ => ⟨S1024x64, .f32⟩
  | .hbm, ⟨2, _⟩ => ⟨S18432x64, .f32⟩
  | .hbm, ⟨3, _⟩ => ⟨S_, .f32⟩
  | .hbm, ⟨4, _⟩ => ⟨S18432, .f32⟩
  | .hbm, ⟨5, _⟩ => ⟨S18432x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S64x1024, .f32⟩
  | .hbm, ⟨11, _⟩ => ⟨S18432x1024, .f32⟩
  | .hbm, ⟨12, _⟩ => ⟨S_, .f32⟩
  | .hbm, ⟨13, _⟩ => ⟨S18432x1024, .f32⟩
  | .hbm, ⟨14, _⟩ => ⟨S18432x1024, .f32⟩
  | .hbm, ⟨15, _⟩ => ⟨S18432x1024, .f32⟩
  | .hbm, ⟨16, _⟩ => ⟨S18432x1024, .f32⟩
  | .hbm, ⟨17, _⟩ => ⟨S18432x1024, .f32⟩
  | .hbm, ⟨18, _⟩ => ⟨S18432x1024, .f32⟩
  | .hbm, ⟨19, _⟩ => ⟨S18432x1024, .f32⟩
  | _, _ => ⟨S18432x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  reducesTo_S18432x64_S18432_d1 : S18432x64.ReducesTo [1] S18432
  h_S_ : 0 < S_.numel
  bcast_S18432_S18432x1_0 : S18432.BroadcastsInDim S18432x1 (![0] : Fin 1 → Fin S18432x1.rank)
  reducesTo_S1024x64_S1024_d1 : S1024x64.ReducesTo [1] S1024
  bcast_S1024_S1x1024_1 : S1024.BroadcastsInDim S1x1024 (![1] : Fin 1 → Fin S1x1024.rank)
  transposes_S1024x64_S64x1024_1_0 : S1024x64.Transposes [1, 0] S64x1024
  bcast_S_S18432x1024 : S_.BroadcastsInDim S18432x1024 (![] : Fin 0 → Fin S18432x1024.rank)
  bcast_S18432x1_S18432x1024_0_1 : S18432x1.BroadcastsInDim S18432x1024 (![0, 1] : Fin 2 → Fin S18432x1024.rank)
  bcast_S1x1024_S18432x1024_0_1 : S1x1024.BroadcastsInDim S18432x1024 (![0, 1] : Fin 2 → Fin S18432x1024.rank)
  dot_S18432x64_S64x1024_S18432x1024_1_0_0_1_n_n_wf : DotDims.WF S18432x64 S64x1024 S18432x1024 [1] [0] [0] [1] [] []

variable [Facts₀]

def dot_S18432x64_S64x1024_S18432x1024_1_0_0_1_n_n : DotDims S18432x64 S64x1024 S18432x1024 where
  lhsContracting := [1]
  rhsContracting := [0]
  lhsNonContracting := [0]
  rhsNonContracting := [1]
  lhsBatch := []
  rhsBatch := []
  wf := dot_S18432x64_S64x1024_S18432x1024_1_0_0_1_n_n_wf

class Facts : Prop extends Facts₀ where

variable [Facts]
-- ==== Proof.Algebra.lean ====
/-
  The arithmetic that joins the two programs, stated with no program in sight.

  For a key row `x` and a code row `y` (64 reals each) write `A = Σ x²`, `B = Σ y²`, `C = Σ x·y`.
  The kernel forms ONE inner product of two 68-entry rows,
      ( 2x | A | A − A | 1 | 1 )  ·  ( y | −1 | −1 | 0 − B | 0 − (B − B) ),
  which is `2C − A − B`; the reference forms `−((A − 2·C) + B)`, the negated squared distance
  `−‖x − y‖²`.  On real numbers the two agree by the ring laws; on the extended reals they need
  every entry to be a real number (the differences `A − A` and `B − B` are `0` only then), which
  is what the finiteness of the inputs gives.  This module proves that law on real-valued rows,
  splits a 68-term sum into its 64 leading terms and its four trailing ones, and evaluates the
  float literals the two programs spell.
-/
import Idealize.ShloMosaic.PureOps.Ideal
import Idealize.ShloMosaic.PureOps.IdealRules

noncomputable section

namespace Cert.VQ

open Idealize.ShloMosaic

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum over 68 positions is the sum over the first 64 plus the last four, one by one. -/
theorem sum_fin68 {M : Type} [AddCommMonoid M] (f : Fin 68 → M) :
    ∑ j, f j = (∑ c : Fin 64, f ⟨c.val, by omega⟩) + f ⟨64, by decide⟩ + f ⟨65, by decide⟩
      + f ⟨66, by decide⟩ + f ⟨67, by decide⟩ := by
  rw [Fin.sum_univ_castSucc, Fin.sum_univ_castSucc, Fin.sum_univ_castSucc, Fin.sum_univ_castSucc]
  rfl

/-- The f32 pattern of `2.0` denotes the number two. -/
theorem two_f32 : Ideal.ofBits .f32 0x40000000#32 = 2 := by
  simp [Ideal.ofBits, Ideal.ieee, -EReal.coe_mul]; norm_num; rfl

/-- The f32 zero pattern denotes zero. -/
theorem zero_f32 : Ideal.ofBits .f32 0x00000000#32 = 0 := by
  simp [Ideal.ofBits, Ideal.ieee]

/-- The bf16 patterns of `1.0`, `-1.0` and `0.0` denote one, minus one and zero. -/
theorem one_bf16 : Ideal.ofBits .bf16 0x3F80#16 = 1 := IdealRules.sign_bit.ideal_onePat .bf16
theorem negOne_bf16 : Ideal.ofBits .bf16 0xBF80#16 = -1 := IdealRules.sign_bit.ideal_negOnePat .bf16
theorem zero_bf16 : Ideal.ofBits .bf16 0x0000#16 = 0 := IdealRules.sign_bit.ideal_zero .bf16

/-- **The law.** On real-valued rows the kernel's 68-term inner product, already split into its
    64 leading products and its four trailing ones, is the reference's negated squared distance. -/
theorem dist_law (x y : Fin 64 → ℝ) :
    (∑ c, ((x c : EReal) + (x c : EReal)) * (y c : EReal))
        + (∑ c, (x c : EReal) * (x c : EReal)) * (-1)
        + ((∑ c, (x c : EReal) * (x c : EReal)) - (∑ c, (x c : EReal) * (x c : EReal))) * (-1)
        + 1 * (0 - (∑ c, (y c : EReal) * (y c : EReal)))
        + 1 * (0 - ((∑ c, (y c : EReal) * (y c : EReal)) - (∑ c, (y c : EReal) * (y c : EReal))))
      = -(((0 + ∑ c, (x c : EReal) * (x c : EReal)) - 2 * ∑ c, (x c : EReal) * (y c : EReal))
          + (0 + ∑ c, (y c : EReal) * (y c : EReal))) := by
  have hxx : (∑ c, (x c : EReal) * (x c : EReal)) = ((∑ c, x c * x c : ℝ) : EReal) := by
    rw [coe_sum]; exact Finset.sum_congr rfl fun c _ => (EReal.coe_mul _ _).symm
  have hyy : (∑ c, (y c : EReal) * (y c : EReal)) = ((∑ c, y c * y c : ℝ) : EReal) := by
    rw [coe_sum]; exact Finset.sum_congr rfl fun c _ => (EReal.coe_mul _ _).symm
  have hxy : (∑ c, (x c : EReal) * (y c : EReal)) = ((∑ c, x c * y c : ℝ) : EReal) := by
    rw [coe_sum]; exact Finset.sum_congr rfl fun c _ => (EReal.coe_mul _ _).symm
  have hxxy : (∑ c, ((x c : EReal) + (x c : EReal)) * (y c : EReal)) = ((2 * ∑ c, x c * y c : ℝ) : EReal) := by
    rw [Finset.mul_sum, coe_sum]
    refine Finset.sum_congr rfl fun c _ => ?_
    rw [← EReal.coe_add, ← EReal.coe_mul]
    exact congrArg _ (by ring)
  rw [hxx, hyy, hxy, hxxy]
  generalize (∑ c, x c * x c : ℝ) = a
  generalize (∑ c, y c * y c : ℝ) = b
  generalize (∑ c, x c * y c : ℝ) = d
  have h2 : (2 : EReal) = ((2 : ℝ) : EReal) := rfl
  have h1 : (1 : EReal) = ((1 : ℝ) : EReal) := rfl
  have h0 : (0 : EReal) = ((0 : ℝ) : EReal) := rfl
  rw [h2, h1, h0]
  simp only [← EReal.coe_mul, ← EReal.coe_add, ← EReal.coe_sub, ← EReal.coe_neg]
  exact congrArg _ (by ring)

end Cert.VQ

end
-- ==== Proof.Layout.lean ====
/-
  How the kernel's layout operations read at an index, over any number `n` of rows.

  The kernel glues five pieces side by side along the column axis — a block of 64 columns and four
  single columns — into an `n × 68` matrix.  Column `c < 64` of row `p` of the result is entry
  `(p, c)` of the wide piece, and columns 64, 65, 66, 67 are entry `(p, 0)` of the four narrow
  pieces in turn.  A row's squared norm is formed as a sum over the 64 columns of the products,
  then viewed as an `n × 1` column; read at `(p, 0)` it is `Σ_c x(p,c)·x(p,c)`.
-/
import Idealize.ShloMosaic.Lib.Pipeline.Value
import Idealize.ShloMosaic.Lib.ValueIdx
import Idealize.ShloMosaic.PureOps.Ideal.Laws

noncomputable section

namespace Cert.VQ

open Idealize.ShloMosaic Idealize.ShloMosaic.ValueIdx

/-- An `n × 64` matrix, an `n × 1` column, the `n × 68` matrix they are glued into, and a length-`n` vector. -/
abbrev Wide (n : Nat) : Shape := ⟨2, ![n, 64]⟩
abbrev Col (n : Nat) : Shape := ⟨2, ![n, 1]⟩
abbrev Aug (n : Nat) : Shape := ⟨2, ![n, 68]⟩
abbrev Len (n : Nat) : Shape := ⟨1, ![n]⟩

section Cat
variable {α : Type} {n : Nat}

/-- Columns below 64 of the glued matrix are the wide piece's. -/
theorem cat_lead (a0 : (Wide n).Idx → α) (a1 a2 a3 a4 : (Col n).Idx → α)
    (h : Shape.Concatenates [Wide n, Col n, Col n, Col n, Col n] (Aug n) 1) (p : Fin n) (c : Fin 64) :
    concatenate (Aug n) 1 [⟨Wide n, a0⟩, ⟨Col n, a1⟩, ⟨Col n, a2⟩, ⟨Col n, a3⟩, ⟨Col n, a4⟩] h (ix2 p ⟨c.val, by omega⟩)
      = a0 (ix2 p c) :=
  concatenate_apply_piece (t := Aug n) 1 [⟨Wide n, a0⟩, ⟨Col n, a1⟩, ⟨Col n, a2⟩, ⟨Col n, a3⟩, ⟨Col n, a4⟩] h (ix2 p ⟨c.val, by omega⟩) 0 (by show (0 : Nat) < 5; decide) (Wide n) a0 rfl rfl 0 rfl (ix2 p c)
    (fun b hb => by
      match b with
      | ⟨0, _⟩ => rfl
      | ⟨1, _⟩ => exact absurd (Fin.ext rfl) hb)
    (Nat.zero_add _)

/-- Column 64 is the first narrow piece. -/
theorem cat_c64 (a0 : (Wide n).Idx → α) (a1 a2 a3 a4 : (Col n).Idx → α)
    (h : Shape.Concatenates [Wide n, Col n, Col n, Col n, Col n] (Aug n) 1) (p : Fin n) :
    concatenate (Aug n) 1 [⟨Wide n, a0⟩, ⟨Col n, a1⟩, ⟨Col n, a2⟩, ⟨Col n, a3⟩, ⟨Col n, a4⟩] h (ix2 p ⟨64, by decide⟩)
      = a1 (ix2 p (0 : Fin 1)) :=
  concatenate_apply_piece (t := Aug n) 1 [⟨Wide n, a0⟩, ⟨Col n, a1⟩, ⟨Col n, a2⟩, ⟨Col n, a3⟩, ⟨Col n, a4⟩] h (ix2 p ⟨64, by decide⟩) 1 (by show (1 : Nat) < 5; decide) (Col n) a1 rfl rfl 64 rfl (ix2 p (0 : Fin 1))
    (fun b hb => by
      match b with
      | ⟨0, _⟩ => rfl
      | ⟨1, _⟩ => exact absurd (Fin.ext rfl) hb)
    rfl

/-- Column 65 is the second narrow piece. -/
theorem cat_c65 (a0 : (Wide n).Idx → α) (a1 a2 a3 a4 : (Col n).Idx → α)
    (h : Shape.Concatenates [Wide n, Col n, Col n, Col n, Col n] (Aug n) 1) (p : Fin n) :
    concatenate (Aug n) 1 [⟨Wide n, a0⟩, ⟨Col n, a1⟩, ⟨Col n, a2⟩, ⟨Col n, a3⟩, ⟨Col n, a4⟩] h (ix2 p ⟨65, by decide⟩)
      = a2 (ix2 p (0 : Fin 1)) :=
  concatenate_apply_piece (t := Aug n) 1 [⟨Wide n, a0⟩, ⟨Col n, a1⟩, ⟨Col n, a2⟩, ⟨Col n, a3⟩, ⟨Col n, a4⟩] h (ix2 p ⟨65, by decide⟩) 2 (by show (2 : Nat) < 5; decide) (Col n) a2 rfl rfl 65 rfl (ix2 p (0 : Fin 1))
    (fun b hb => by
      match b with
      | ⟨0, _⟩ => rfl
      | ⟨1, _⟩ => exact absurd (Fin.ext rfl) hb)
    rfl

/-- Column 66 is the third narrow piece. -/
theorem cat_c66 (a0 : (Wide n).Idx → α) (a1 a2 a3 a4 : (Col n).Idx → α)
    (h : Shape.Concatenates [Wide n, Col n, Col n, Col n, Col n] (Aug n) 1) (p : Fin n) :
    concatenate (Aug n) 1 [⟨Wide n, a0⟩, ⟨Col n, a1⟩, ⟨Col n, a2⟩, ⟨Col n, a3⟩, ⟨Col n, a4⟩] h (ix2 p ⟨66, by decide⟩)
      = a3 (ix2 p (0 : Fin 1)) :=
  concatenate_apply_piece (t := Aug n) 1 [⟨Wide n, a0⟩, ⟨Col n, a1⟩, ⟨Col n, a2⟩, ⟨Col n, a3⟩, ⟨Col n, a4⟩] h (ix2 p ⟨66, by decide⟩) 3 (by show (3 : Nat) < 5; decide) (Col n) a3 rfl rfl 66 rfl (ix2 p (0 : Fin 1))
    (fun b hb => by
      match b with
      | ⟨0, _⟩ => rfl
      | ⟨1, _⟩ => exact absurd (Fin.ext rfl) hb)
    rfl

/-- Column 67 is the fourth narrow piece. -/
theorem cat_c67 (a0 : (Wide n).Idx → α) (a1 a2 a3 a4 : (Col n).Idx → α)
    (h : Shape.Concatenates [Wide n, Col n, Col n, Col n, Col n] (Aug n) 1) (p : Fin n) :
    concatenate (Aug n) 1 [⟨Wide n, a0⟩, ⟨Col n, a1⟩, ⟨Col n, a2⟩, ⟨Col n, a3⟩, ⟨Col n, a4⟩] h (ix2 p ⟨67, by decide⟩)
      = a4 (ix2 p (0 : Fin 1)) :=
  concatenate_apply_piece (t := Aug n) 1 [⟨Wide n, a0⟩, ⟨Col n, a1⟩, ⟨Col n, a2⟩, ⟨Col n, a3⟩, ⟨Col n, a4⟩] h (ix2 p ⟨67, by decide⟩) 4 (by show (4 : Nat) < 5; decide) (Col n) a4 rfl rfl 67 rfl (ix2 p (0 : Fin 1))
    (fun b hb => by
      match b with
      | ⟨0, _⟩ => rfl
      | ⟨1, _⟩ => exact absurd (Fin.ext rfl) hb)
    rfl

/-- A length-`n` vector viewed as an `n × 1` column reads, at `(p, u)`, the vector at `p`. -/
theorem column_apply (v : (Len n).Idx → α) (h : (Len n).ShapeCasts (Col n)) (p : Fin n) (u : Fin 1) :
    shapeCast (Col n) v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Cat

/-- The sum along the columns of an `n × 64` matrix, read at row `p`: the 64 entries of that row added. -/
theorem rowsum_apply {n : Nat} {φ : FTy} (src : FVec Ideal (Wide n) φ) (acc : BitVec φ.bits)
    (h : (Wide n).Reduces [1] (Len n)) (hφ : FKind.Formats φ) (hacc : acc = FKind.add.neutral φ hφ) (p : Fin n) :
    multiReduction .add [1] (Len n) src acc h hφ hacc (ix1 p) = ∑ c : Fin 64, src (ix2 p c) := by
  refine (Ideal.multiReduction_add_single src acc h hφ hacc (ix1 p)).trans ?_
  refine Finset.sum_congr rfl fun c _ => congrArg src ?_
  funext a
  apply Fin.ext
  match a with
  | ⟨0, _⟩ => rfl
  | ⟨1, _⟩ => rfl

/-- A row's squared norm, formed as the kernel forms it (the products added along the columns, then viewed as a
    column), read at `(p, u)`. -/
theorem sqnorm_apply {n : Nat} (x : FVec Ideal (Wide n) .f32) (acc : BitVec (FTy.bits .f32))
    (h : (Wide n).Reduces [1] (Len n)) (hφ : FKind.Formats .f32) (hacc : acc = FKind.add.neutral .f32 hφ)
    (h' : (Len n).ShapeCasts (Col n)) (p : Fin n) (u : Fin 1) :
    shapeCast (Col n) (multiReduction .add [1] (Len n) (mulf x x) acc h hφ hacc) h' (ix2 p u)
      = ∑ c : Fin 64, x (ix2 p c) * x (ix2 p c) :=
  (column_apply _ h' p u).trans (rowsum_apply (mulf x x) acc h hφ hacc p)

end Cert.VQ

end
-- ==== Proof.KernelRow.lean ====
/-
  The kernel's body at an index.

  The body stores one matrix product: row `p` of the keys' augmented matrix
  `( 2x | ‖x‖² | ‖x‖² − ‖x‖² | 1 | 1 )` against row `q` of the codebook's augmented matrix
  `( y | −1 | −1 | 0 − ‖y‖² | 0 − (‖y‖² − ‖y‖²) )`, contracted over their 68 columns into a zero
  accumulator.  Read at `(p, q)` the product is a sum over the 68 columns; the first 64 terms come
  from the wide pieces and the last four from the single columns.  The changes of float format on the
  way into the product are the identity on the extended reals.
-/
import proofs.«119705_g22522808500718_cont_8to1_552_19_alg».proof.Proof.Gen.KernelIdeal.Skeleton
import proofs.«119705_g22522808500718_cont_8to1_552_19_alg».proof.Proof.Algebra
import proofs.«119705_g22522808500718_cont_8to1_552_19_alg».proof.Proof.Layout

noncomputable section

namespace Cert.VQ

open Idealize.ShloMosaic Idealize.ShloMosaic.ValueIdx
open Cert.KernelIdeal Cert.KernelIdeal.Gen

/-- The product's dimension record: both operands contract their column axis. -/
abbrev rowsByRows : DotDims S3072x68 S1024x68 S3072x1024 := dot_S3072x68_S1024x68_S3072x1024_1_1_0_0_n_n

theorem left_row (i : S3072x1024.Idx) (k : rowsByRows.contr.Idx) : (rowsByRows.lhsIdx i k 0).val = (i 0).val := by
  unfold DotDims.lhsIdx
  rw [dif_neg (show ¬(0 : Fin S3072x68.rank) ∈ rowsByRows.lhsBatch by decide),
    dif_pos (show (0 : Fin S3072x68.rank) ∈ rowsByRows.lhsNonContracting by decide)]
  rfl
theorem left_col (i : S3072x1024.Idx) (k : rowsByRows.contr.Idx) :
    (rowsByRows.lhsIdx i k 1).val = (k ⟨0, by decide⟩).val :=
  rowsByRows.lhsIdx_val_of_single rfl i k
theorem right_row (i : S3072x1024.Idx) (k : rowsByRows.contr.Idx) : (rowsByRows.rhsIdx i k 0).val = (i 1).val := by
  unfold DotDims.rhsIdx
  rw [dif_neg (show ¬(0 : Fin S1024x68.rank) ∈ rowsByRows.rhsBatch by decide),
    dif_pos (show (0 : Fin S1024x68.rank) ∈ rowsByRows.rhsNonContracting by decide)]
  rfl
theorem right_col (i : S3072x1024.Idx) (k : rowsByRows.contr.Idx) :
    (rowsByRows.rhsIdx i k 1).val = (k ⟨0, by decide⟩).val :=
  rowsByRows.rhsIdx_val_of_single rfl i k

/-- The product into the zero accumulator, read at `(p, q)`: row `p` of the left operand against row `q` of the
    right one, summed over the 68 columns. -/
theorem product_apply (L : FVec Ideal S3072x68 .bf16) (R : FVec Ideal S1024x68 .bf16) (p : Fin 3072) (q : Fin 1024) :
    matmul rowsByRows none L R (constant (F := Ideal) S3072x1024 .f32 0x00000000#32) (ix2 p q)
      = ∑ k : Fin 68, L (ix2 p k) * R (ix2 q k) := by
  refine (Ideal.matmul_constant_zero_apply rowsByRows none L R (ix2 p q)).trans ?_
  rw [← Equiv.sum_comp (contrEquiv1 rowsByRows 68 rfl rfl).symm]
  refine Finset.sum_congr rfl fun k _ => ?_
  have hk := contrEquiv1_symm_val rowsByRows 68 rfl rfl k
  have el : rowsByRows.lhsIdx (ix2 p q) ((contrEquiv1 rowsByRows 68 rfl rfl).symm k) = ix2 p k :=
    funext fun a => Fin.ext (by
      match a with
      | ⟨0, _⟩ => exact left_row _ _
      | ⟨1, _⟩ => exact (left_col _ _).trans hk)
  have er : rowsByRows.rhsIdx (ix2 p q) ((contrEquiv1 rowsByRows 68 rfl rfl).symm k) = ix2 q k :=
    funext fun a => Fin.ext (by
      match a with
      | ⟨0, _⟩ => exact right_row _ _
      | ⟨1, _⟩ => exact (right_col _ _).trans hk)
  rw [el, er]

/-- The product of two glued matrices, read at `(p, q)`: the 64 products of the wide pieces plus the four products
    of the single columns. -/
theorem product_glued (a0 : FVec Ideal S3072x64 .bf16) (a1 a2 a3 a4 : FVec Ideal S3072x1 .bf16)
    (b0 : FVec Ideal S1024x64 .bf16) (b1 b2 b3 b4 : FVec Ideal S1024x1 .bf16)
    (hA : Shape.Concatenates [S3072x64, S3072x1, S3072x1, S3072x1, S3072x1] S3072x68 1)
    (hB : Shape.Concatenates [S1024x64, S1024x1, S1024x1, S1024x1, S1024x1] S1024x68 1)
    (p : Fin 3072) (q : Fin 1024) :
    matmul rowsByRows none
        (concatenate S3072x68 1 [⟨S3072x64, a0⟩, ⟨S3072x1, a1⟩, ⟨S3072x1, a2⟩, ⟨S3072x1, a3⟩, ⟨S3072x1, a4⟩] hA)
        (concatenate S1024x68 1 [⟨S1024x64, b0⟩, ⟨S1024x1, b1⟩, ⟨S1024x1, b2⟩, ⟨S1024x1, b3⟩, ⟨S1024x1, b4⟩] hB)
        (constant (F := Ideal) S3072x1024 .f32 0x00000000#32) (ix2 p q)
      = (∑ c : Fin 64, a0 (ix2 p c) * b0 (ix2 q c))
          + a1 (ix2 p (0 : Fin 1)) * b1 (ix2 q (0 : Fin 1))
          + a2 (ix2 p (0 : Fin 1)) * b2 (ix2 q (0 : Fin 1))
          + a3 (ix2 p (0 : Fin 1)) * b3 (ix2 q (0 : Fin 1))
          + a4 (ix2 p (0 : Fin 1)) * b4 (ix2 q (0 : Fin 1)) := by
  refine (product_apply _ _ p q).trans ?_
  rw [sum_fin68]
  rw [cat_c64 a0 a1 a2 a3 a4 hA p, cat_c65 a0 a1 a2 a3 a4 hA p, cat_c66 a0 a1 a2 a3 a4 hA p, cat_c67 a0 a1 a2 a3 a4 hA p,
    cat_c64 b0 b1 b2 b3 b4 hB q, cat_c65 b0 b1 b2 b3 b4 hB q, cat_c66 b0 b1 b2 b3 b4 hB q, cat_c67 b0 b1 b2 b3 b4 hB q]
  refine congrArg (· + _ + _ + _ + _) (Finset.sum_congr rfl fun c _ => ?_)
  rw [cat_lead a0 a1 a2 a3 a4 hA p c, cat_lead b0 b1 b2 b3 b4 hB q c]

/-- **The body's stored value at `(p, q)`**, as a term of the two loaded blocks: the 68 products, grouped. -/
theorem payload_apply (x0 : Vec Ideal S3072x64 .f32) (x1 : Vec Ideal S1024x64 .f32) (p : Fin 3072) (q : Fin 1024) :
    k0_pay1 (F := Ideal) x0 x1 (ix2 p q)
      = (∑ c : Fin 64, (x0 (ix2 p c) + x0 (ix2 p c)) * x1 (ix2 q c))
          + (∑ c : Fin 64, x0 (ix2 p c) * x0 (ix2 p c)) * (-1)
          + ((∑ c : Fin 64, x0 (ix2 p c) * x0 (ix2 p c)) - (∑ c : Fin 64, x0 (ix2 p c) * x0 (ix2 p c))) * (-1)
          + 1 * (0 - (∑ c : Fin 64, x1 (ix2 q c) * x1 (ix2 q c)))
          + 1 * (0 - ((∑ c : Fin 64, x1 (ix2 q c) * x1 (ix2 q c)) - (∑ c : Fin 64, x1 (ix2 q c) * x1 (ix2 q c)))) := by
  unfold k0_pay1
  refine (product_glued _ _ _ _ _ _ _ _ _ _ _ _ p q).trans ?_
  have hk : ∀ u : Fin 1, shapeCast S3072x1 (multiReduction (F := Ideal) .add [1] S3072 (mulf (F := Ideal) (φ := .f32) x0 x0) 0x00000000#32 reduces_S3072x64_S3072 (.inl rfl) rfl)
      shapeCasts_S3072_S3072x1 (ix2 p u) = ∑ c : Fin 64, x0 (ix2 p c) * x0 (ix2 p c) :=
    fun u => sqnorm_apply (n := 3072) x0 _ _ _ _ _ p u
  have he : ∀ u : Fin 1, shapeCast S1024x1 (multiReduction (F := Ideal) .add [1] S1024 (mulf (F := Ideal) (φ := .f32) x1 x1) 0x00000000#32 reduces_S1024x64_S1024 (.inl rfl) rfl)
      shapeCasts_S1024_S1024x1 (ix2 q u) = ∑ c : Fin 64, x1 (ix2 q c) * x1 (ix2 q c) :=
    fun u => sqnorm_apply (n := 1024) x1 _ _ _ _ _ q u
  simp only [truncf_apply, subf_apply, addf_apply, broadcast_apply, hk, he]
  simp only [Ideal.ofBits_def, one_bf16, negOne_bf16, zero_bf16]

end Cert.VQ

end
-- ==== Proof.Spec.lean ====
/-
  The specification: the logits of a vector quantizer.

  For keys `K` (18432 rows of 64 reals) and a codebook `E` (1024 rows of 64 reals) the logit of key `p`
  against code `q` is the negated squared Euclidean distance `−‖K_p − E_q‖²`, written in its expanded
  form `−((‖K_p‖² − 2·⟨K_p, E_q⟩) + ‖E_q‖²)` with each squared norm a sum started from zero.
-/
import Idealize.ShloMosaic.PureOps.Ideal
import Idealize.ShloMosaic.Lib.ValueIdx

noncomputable section

namespace Cert.VQ

open Idealize.ShloMosaic Idealize.ShloMosaic.ValueIdx

/-- The logit of key row `p` against code row `q`. -/
def negSqDist (K : (⟨2, ![18432, 64]⟩ : Shape).Idx → EReal) (E : (⟨2, ![1024, 64]⟩ : Shape).Idx → EReal)
    (p : Fin 18432) (q : Fin 1024) : EReal :=
  -(((0 + ∑ c : Fin 64, K (ix2 p c) * K (ix2 p c)) - 2 * ∑ c : Fin 64, K (ix2 p c) * E (ix2 q c))
      + (0 + ∑ c : Fin 64, E (ix2 q c) * E (ix2 q c)))

/-- The whole 18432 × 1024 array of logits. -/
def logits (K : (⟨2, ![18432, 64]⟩ : Shape).Idx → EReal) (E : (⟨2, ![1024, 64]⟩ : Shape).Idx → EReal) :
    (⟨2, ![18432, 1024]⟩ : Shape).Idx → EReal :=
  fun i => negSqDist K E (i 0) (i 1)

theorem logits_apply (K : (⟨2, ![18432, 64]⟩ : Shape).Idx → EReal) (E : (⟨2, ![1024, 64]⟩ : Shape).Idx → EReal)
    (p : Fin 18432) (q : Fin 1024) : logits K E (ix2 p q) = negSqDist K E p q := rfl

end Cert.VQ

end
-- ==== Proof.KernelPoint.lean ====
/-
  One entry of one block is one logit.

  At a grid point the body sees a block of 3072 key rows and the whole codebook.  If row `p` of the
  block is row `P` of the keys, and the entries are real numbers, the value stored at `(p, q)` — the
  68-term inner product of the augmented rows — is the logit of key `P` against code `q`: the law of
  the arithmetic module applied to the two rows.
-/
import proofs.«119705_g22522808500718_cont_8to1_552_19_alg».proof.Proof.KernelRow
import proofs.«119705_g22522808500718_cont_8to1_552_19_alg».proof.Proof.Spec

noncomputable section

namespace Cert.VQ

open Idealize.ShloMosaic Idealize.ShloMosaic.ValueIdx
open Cert.KernelIdeal Cert.KernelIdeal.Gen

theorem point_value (K : (⟨2, ![18432, 64]⟩ : Shape).Idx → EReal) (E : (⟨2, ![1024, 64]⟩ : Shape).Idx → EReal)
    (hK : ∀ i, ∃ r : ℝ, K i = (r : EReal)) (hE : ∀ i, ∃ r : ℝ, E i = (r : EReal))
    (x0 : Vec Ideal S3072x64 .f32) (x1 : Vec Ideal S1024x64 .f32) (p : Fin 3072) (q : Fin 1024) (P : Fin 18432)
    (h0 : ∀ j : Fin 64, x0 (ix2 p j) = K (ix2 P j)) (h1 : ∀ j : Fin 64, x1 (ix2 q j) = E (ix2 q j)) :
    k0_pay1 (F := Ideal) x0 x1 (ix2 p q) = negSqDist K E P q := by
  choose kr hkr using hK
  choose er her using hE
  rw [payload_apply]
  unfold negSqDist
  simp only [h0, h1, hkr, her]
  exact dist_law (fun j => kr (ix2 P j)) (fun j => er (ix2 q j))

end Cert.VQ

end
-- ==== Proof.KernelValue.lean ====
/-
  From blocks to the array: after the run the kernel's result array is the array of logits.

  The grid has six points; point `t` reads rows `3072·t … 3072·t + 3071` of the keys and the whole
  codebook, and writes back rows `3072·t … 3072·t + 3071` of the result, all 1024 columns.  What it
  writes back is that block of the array of logits (one entry of one block is one logit), and the six
  blocks cover the result array: row `r` lies in the block of point `r / 3072`.
-/
import proofs.«119705_g22522808500718_cont_8to1_552_19_alg».proof.Proof.Gen.KernelIdeal.Value
import proofs.«119705_g22522808500718_cont_8to1_552_19_alg».proof.Proof.KernelPoint

noncomputable section

namespace Cert.VQ

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where the three windows' blocks sit at each grid point: the keys' block moves with the result's along the rows,
    the codebook's block never moves, and no block moves along the columns. -/
theorem block_positions : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 5 :=
  (by decide +kernel : ∀ t : Fin grid0.N, _)

/-- Every one of the six row blocks of the result is some point's. -/
theorem block_onto : ∀ b : Fin 6, ∃ t : Fin cfg0.N, win0_2.index t = ![b.val, 0] :=
  (by decide +kernel : ∀ b : Fin 6, ∃ t : Fin grid0.N, win0_2.index t = ![b.val, 0])

/-- What point `t` writes back is block `t` of the array of logits of the argument arrays. -/
theorem flushed_eq (c : Dev nD)
    (hK : ∀ i, ∃ r : ℝ, (V m c main_arg0 : S18432x64.Idx → EReal) i = (r : EReal))
    (hE : ∀ i, ∃ r : ℝ, (V m c main_arg1 : S1024x64.Idx → EReal) i = (r : EReal)) (t : Fin cfg0.N) :
    (dats m 0 c).flushed 2 t
      = ((cfg0.win 2).blk t).view.read (Elt Ideal) (logits (V m c main_arg0) (V m c main_arg1)) := by
  rw [flushed2]
  unfold out0_2
  rw [View.canon_unit_zero origin]
  simp only [View.ld_unit_zero (S := S3072x64) origin, View.ld_unit_zero (S := S1024x64) origin]
  obtain ⟨e0, e1, e2, e3, e4, e5⟩ := block_positions t
  funext y
  obtain ⟨p, q, rfl⟩ : ∃ (p : Fin 3072) (q : Fin 1024), y = ix2 p q := ⟨y 0, y 1, eq_ix2 y⟩
  have hp : p.val < 3072 := p.isLt
  have hq : q.val < 1024 := q.isLt
  let P : Fin 18432 := ⟨win0_2.index t (0 : Fin 2) * 3072 + p.val, by omega⟩
  have hemb : ((cfg0.win 2).blk t).view.emb (ix2 p q) = ix2 P q := by
    funext a; apply Fin.ext
    match a with
    | ⟨0, _⟩ => show win0_2.index t (0 : Fin 2) * 3072 + 1 * p.val = win0_2.index t (0 : Fin 2) * 3072 + p.val; omega
    | ⟨1, _⟩ => show win0_2.index t (1 : Fin 2) * 1024 + 1 * q.val = q.val; omega
  show k0_pay1 (F := Ideal) (iblk m c 0 t) (iblk m c 1 t) (ix2 p q)
    = logits (V m c main_arg0) (V m c main_arg1) (((cfg0.win 2).blk t).view.emb (ix2 p q))
  rw [hemb, logits_apply]
  refine point_value (V m c main_arg0) (V m c main_arg1) hK hE (iblk m c 0 t) (iblk m c 1 t) p q P ?_ ?_
  · intro j
    have hj : j.val < 64 := j.isLt
    show V m c main_arg0 (((cfg0.win 0).blk t).view.emb (ix2 p j)) = V m c main_arg0 (ix2 P j)
    refine congrArg _ ?_
    funext a; apply Fin.ext
    match a with
    | ⟨0, _⟩ => show win0_0.index t (0 : Fin 2) * 3072 + 1 * p.val = win0_2.index t (0 : Fin 2) * 3072 + p.val; omega
    | ⟨1, _⟩ => show win0_0.index t (1 : Fin 2) * 64 + 1 * j.val = j.val; omega
  · intro j
    have hj : j.val < 64 := j.isLt
    show V m c main_arg1 (((cfg0.win 1).blk t).view.emb (ix2 q j)) = V m c main_arg1 (ix2 q j)
    refine congrArg _ ?_
    funext a; apply Fin.ext
    match a with
    | ⟨0, _⟩ => show win0_1.index t (0 : Fin 2) * 1024 + 1 * q.val = q.val; omega
    | ⟨1, _⟩ => show win0_1.index t (1 : Fin 2) * 64 + 1 * j.val = j.val; omega

/-- An index of the result array is in point `t`'s block iff each coordinate is in the block's range on its axis. -/
theorem mem_block (t : Fin cfg0.N) (i : S18432x1024.Idx) :
    i ∈ ((cfg0.win 2).blk t).view.set ↔ ∀ a : Fin 2, win0_2.index t a * S3072x1024.size a ≤ (i a).val
      ∧ (i a).val < win0_2.index t a * S3072x1024.size a + S3072x1024.size a := by
  show i ∈ ((View.whole main_v0).slice (win0_2.rect t)).set ↔ _
  rw [View.set_slice_whole, Rect.mem_set_unit]
  exact Iff.rfl

/-- The six blocks cover the result array: row `r` is in the block of point `r / 3072`. -/
theorem covered (i : S18432x1024.Idx) :
    ∃ t : Fin cfg0.N, (cfg0.win 2).flush t = true ∧ i ∈ ((cfg0.win 2).blk t).view.set := by
  have hi0 : (i 0).val < 18432 := (i 0).isLt
  have hi1 : (i 1).val < 1024 := (i 1).isLt
  obtain ⟨t, ht⟩ := block_onto ⟨(i 0).val / 3072, by omega⟩
  have q0 : win0_2.index t (0 : Fin 2) = (i 0).val / 3072 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 3072 ≤ (i 0).val ∧ (i 0).val < win0_2.index t (0 : Fin 2) * 3072 + 3072; omega
  | ⟨1, _⟩ => show win0_2.index t (1 : Fin 2) * 1024 ≤ (i 1).val ∧ (i 1).val < win0_2.index t (1 : Fin 2) * 1024 + 1024; omega

/-- The result array after the run is the array of logits of the argument arrays. -/
theorem final (c : Dev nD)
    (hK : ∀ i, ∃ r : ℝ, (m ((c : Thread nD τ).loc main_arg0) : S18432x64.Idx → EReal) i = (r : EReal))
    (hE : ∀ i, ∃ r : ℝ, (m ((c : Thread nD τ).loc main_arg1) : S1024x64.Idx → EReal) i = (r : EReal)) :
    (dats m 0 c).arrAt 2 cfg0.N
      = logits (m ((c : Thread nD τ).loc main_arg0)) (m ((c : Thread nD τ).loc main_arg1)) :=
  (dats m 0 c).arrAt_eq_of_cover 2 (logits (V m c main_arg0) (V m c main_arg1))
    (fun t _ => flushed_eq m c hK hE t) covered

/-- The kernel's run, read: on every device the result array ends as the array of logits of the argument arrays, the
    arguments unchanged — provided every entry of the arguments is a real number. -/
theorem kernel_run
    (hfin : ∀ c : Dev nD,
      (∀ i, ∃ r : ℝ, (m ((c : Thread nD τ).loc main_arg0) : S18432x64.Idx → EReal) i = (r : EReal))
      ∧ (∀ i, ∃ r : ℝ, (m ((c : Thread nD τ).loc main_arg1) : S1024x64.Idx → EReal) i = (r : EReal))) :
    θ_run defs (onTc (τ := τ) (main (F := Ideal))) ⟨m, fun _ => 0, ρ⟩ fun r => ∀ c : Dev nD,
      r.2.mem ((c : Thread nD τ).loc main_v0)
        = logits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c).1 (hfin c).2), (h c).2⟩)
    (run_blocks m ρ)

end Cert.VQ

end
-- ==== Proof.RefRow.lean ====
/-
  The reference computes the specification.

  Read one operation at a time, the reference's result at `(p, q)` is
  `−((‖K_p‖² − 2·⟨K_p, E_q⟩) + ‖E_q‖²)`: the two squared norms are host sums started from the
  literal zero, the inner product is a `dot_general` of the keys with the transposed codebook,
  and the factor is the literal two.  The index functions the reading composes are, at `(p, q)`,
  row `p` of the keys and row `q` of the codebook.
-/
import proofs.«119705_g22522808500718_cont_8to1_552_19_alg».proof.Proof.Gen.ReferenceIdeal.Read
import proofs.«119705_g22522808500718_cont_8to1_552_19_alg».proof.Proof.Algebra
import proofs.«119705_g22522808500718_cont_8to1_552_19_alg».proof.Proof.Spec

noncomputable section

namespace Cert.VQ

open Idealize.ShloMosaic Idealize.ShloMosaic.ValueIdx
open Cert.ReferenceIdeal Cert.ReferenceIdeal.Gen Cert.ReferenceIdeal.Read

/-- The squared norm of a key reads row `p` of the keys. -/
theorem idx_keysq (p : Fin 18432) (q : Fin 1024) (k : Fin 64) :
    idx_main_v1 (idx_main_v2 (idx_main_v10 (ix2 p q))) k = ix2 p k :=
  funext fun a => Fin.ext (by match a with | ⟨0, _⟩ => rfl | ⟨1, _⟩ => rfl)

/-- The squared norm of a code reads row `q` of the codebook. -/
theorem idx_codesq (p : Fin 18432) (q : Fin 1024) (k : Fin 64) :
    idx_main_v4 (idx_main_v5 (idx_main_v12 (ix2 p q))) k = ix2 q k :=
  funext fun a => Fin.ext (by match a with | ⟨0, _⟩ => rfl | ⟨1, _⟩ => rfl)

/-- The inner product's left factor is row `p` of the keys, -/
theorem idx_dot_left (p : Fin 18432) (q : Fin 1024) (k : Fin 64) :
    lidx_main_v7 (ix2 p q) k = ix2 p k :=
  funext fun a => Fin.ext (by match a with | ⟨0, _⟩ => rfl | ⟨1, _⟩ => rfl)

/-- and its right factor, through the transpose, row `q` of the codebook. -/
theorem idx_dot_right (p : Fin 18432) (q : Fin 1024) (k : Fin 64) :
    idx_main_v6 (ridx_main_v7 (ix2 p q) k) = ix2 q k :=
  funext fun a => Fin.ext (by match a with | ⟨0, _⟩ => rfl | ⟨1, _⟩ => rfl)

/-- The reference's result array is the array of logits. -/
theorem reference_eq (x0 : (⟨S18432x64, .f32⟩ : BufTy).Contents (Elt Ideal)) (x1 : (⟨S1024x64, .f32⟩ : BufTy).Contents (Elt Ideal)) :
    val_main_v14 (F := Ideal) x0 x1 = logits x0 x1 := by
  funext i
  obtain ⟨p, q, rfl⟩ : ∃ (p : Fin 18432) (q : Fin 1024), i = ix2 p q := ⟨i 0, i 1, eq_ix2 i⟩
  rw [logits_apply, val_main_v14_apply, val_main_v13_apply, val_main_v11_apply, val_main_v10_apply, val_main_v2_apply,
    val_main_v1_apply, val_main_v9_apply, val_main_v8_apply, val_main_v7_apply, val_main_v12_apply, val_main_v5_apply,
    val_main_v4_apply]
  simp only [val_main_v0_apply, val_main_v3_apply, val_main_v6_apply, val_main_cst_apply, val_main_cst_0_apply,
    val_main_cst_1_apply, idx_keysq, idx_codesq, idx_dot_left, idx_dot_right, Ideal.mulf_def, Ideal.addf_def,
    Ideal.subf_def, Ideal.hostNegf_def, Ideal.negf_def, Ideal.ofBits_def, two_f32, zero_f32]
  rfl

end Cert.VQ

end
-- ==== Proof.Finite.lean ====
/-
  Finiteness: under the precondition every entry of both inputs is a real number.

  The precondition says that every entry `x` of the keys and of the codebook has `|x| < +∞`, all these
  comparisons folded by `and`.  An extended real whose absolute value is below `+∞` is neither infinity,
  so it is a real number.
-/
import proofs.«119705_g22522808500718_cont_8to1_552_19_alg».proof.Pre_finite_inputs
import Idealize.ShloMosaic.Lib.ReduceAll
import Idealize.ShloMosaic.Lib.ValueIdx
import Idealize.ShloMosaic.PureOps.Ideal

noncomputable section

namespace Cert.VQ

open Idealize.ShloMosaic Idealize.ShloMosaic.ValueIdx

instance : Subsingleton Cert.Pre_finite_inputs.S_.Idx := ⟨fun a b => funext fun d => d.elim0⟩

/-- The f32 pattern `0x7F800000` denotes `+∞`. -/
theorem inf_f32 : Ideal.ofBits .f32 0x7F800000#32 = ⊤ := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [inf_f32] at h
  induction x using EReal.rec with
  | bot => simp [Ideal.cmp] at h
  | top => simp [Ideal.cmp] at h
  | coe r => exact ⟨r, rfl⟩

/-- Under the precondition every entry of the keys and of the codebook is a real number. -/
theorem real_of_pre [Cert.Pre_finite_inputs.Facts]
    (K : FVec Ideal Cert.Pre_finite_inputs.S18432x64 .f32) (E : FVec Ideal Cert.Pre_finite_inputs.S1024x64 .f32)
    (h : Cert.Pre_finite_inputs.fn (F := Ideal) K E = fun _ => 1#1) :
    (∀ i, ∃ r : ℝ, K i = (r : EReal)) ∧ (∀ i, ∃ r : ℝ, E i = (r : EReal)) := by
  have h0 := congrFun h ix0
  dsimp only [Cert.Pre_finite_inputs.fn] at h0
  obtain ⟨hK, hE⟩ := IntOp.andi_eq_one.1 h0
  refine ⟨fun i => ?_, fun i => ?_⟩
  · exact real_of_abs_lt_inf (K i) (Host.reduce_andi_all _ _ _ _ ix0 hK i)
  · exact real_of_abs_lt_inf (E i) (Host.reduce_andi_all _ _ _ _ ix0 hE i)

end Cert.VQ

end
-- ==== Proof.lean ====
/-
  The kernel computes the logits of a vector quantizer, `logits[b, k] = −‖keys[b] − emb[k]‖²`, as ONE matrix
  product: it augments each key row to `( 2x | ‖x‖² | ‖x‖² − ‖x‖² | 1 | 1 )` and each code row to
  `( y | −1 | −1 | 0 − ‖y‖² | 0 − (‖y‖² − ‖y‖²) )` and contracts the 68 columns, six blocks of 3072 key rows in turn.
  The reference computes `−((‖x‖² − 2·⟨x, y⟩) + ‖y‖²)` with host sums and one `dot_general`.

  On the extended reals the two are equal when every input entry is a real number, which the precondition gives:
  the inner product of the augmented rows is `2⟨x, y⟩ − ‖x‖² − ‖y‖²` by the ring laws (Proof/Algebra.lean), the two
  correction columns `‖x‖² − ‖x‖²` and `‖y‖² − ‖y‖²` being zero exactly because the norms are finite.

  The modules: Proof/Spec.lean states the array of logits; Proof/Algebra.lean the law on real rows; Proof/Layout.lean
  reads the glued matrices and the squared norms at an index; Proof/KernelRow.lean and Proof/KernelPoint.lean read the
  body's stored value at an index; Proof/KernelValue.lean carries the six blocks to the whole result array;
  Proof/RefRow.lean reads the reference; Proof/Finite.lean turns the precondition into real entries.  Here the five
  claims are assembled.
-/
import proofs.«119705_g22522808500718_cont_8to1_552_19_alg».proof.Defs
import proofs.«119705_g22522808500718_cont_8to1_552_19_alg».proof.Proof.Gen.Kernel
import proofs.«119705_g22522808500718_cont_8to1_552_19_alg».proof.Proof.Gen.Kernel.Frame
import proofs.«119705_g22522808500718_cont_8to1_552_19_alg».proof.Proof.Gen.KernelIdeal
import proofs.«119705_g22522808500718_cont_8to1_552_19_alg».proof.Proof.Gen.KernelIdeal.Frame
import proofs.«119705_g22522808500718_cont_8to1_552_19_alg».proof.Proof.Gen.KernelIdeal.Value
import proofs.«119705_g22522808500718_cont_8to1_552_19_alg».proof.Proof.Gen.ReferenceIdeal
import proofs.«119705_g22522808500718_cont_8to1_552_19_alg».proof.Proof.Gen.ReferenceIdeal.Run
import proofs.«119705_g22522808500718_cont_8to1_552_19_alg».proof.Proof.Gen.ReferenceIdeal.Read
import proofs.«119705_g22522808500718_cont_8to1_552_19_alg».proof.Proof.Gen.Pre_finite_inputs
import proofs.«119705_g22522808500718_cont_8to1_552_19_alg».proof.Proof.KernelValue
import proofs.«119705_g22522808500718_cont_8to1_552_19_alg».proof.Proof.RefRow
import proofs.«119705_g22522808500718_cont_8to1_552_19_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two squared norms are rounded to bf16 and widened back before the low-order parts are taken; on the extended
    reals that round trip is the identity, on the key column and on the code column. -/
theorem preserves : Cert.preserves_Kernel_KernelIdeal :=
  ⟨IdealRules.truncf_extf.statement _ .f32 .bf16, IdealRules.truncf_extf.statement _ .f32 .bf16⟩

/-- Both programs end with the array of logits of the arguments: the kernel block by block, the reference operation by
    operation, the inputs' entries real numbers by the precondition. -/
theorem algebraic : Cert.algebraic_KernelIdeal_ReferenceIdeal := by
  intro m ρ m' ρ' hpre hagree
  have hfin := fun c => Cert.VQ.real_of_pre _ _ (hpre c)
  refine ⟨fun c => Cert.VQ.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.VQ.kernel_run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.VQ.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
